-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x2048 : Shape := ⟨2, ![16384, 2048]⟩
abbrev S2048x2048 : Shape := ⟨2, ![2048, 2048]⟩
abbrev S2048 : Shape := ⟨1, ![2048]⟩
abbrev S_ : Shape := ⟨0, ![]⟩

class Facts : Prop where
  bcast_S_S16384x2048 : S_.BroadcastsInDim S16384x2048 (![] : Fin 0 → Fin S16384x2048.rank)
  reducesTo_S16384x2048_S_d0_1 : S16384x2048.ReducesTo [0, 1] S_
  h_S_ : 0 < S_.numel
  bcast_S_S2048x2048 : S_.BroadcastsInDim S2048x2048 (![] : Fin 0 → Fin S2048x2048.rank)
  reducesTo_S2048x2048_S_d0_1 : S2048x2048.ReducesTo [0, 1] S_
  bcast_S_S2048 : S_.BroadcastsInDim S2048 (![] : Fin 0 → Fin S2048.rank)
  reducesTo_S2048_S_d0 : S2048.ReducesTo [0] S_

variable [Facts]

def fn_part1 {F : FTy → Type} [FloatOps F] (main_arg4 : FVec F S2048x2048 .f32) (main_v13 : IVec S_ 1) (main_v16 : IVec S2048 1) : IVec S_ 1 :=
  let main_c_5 : IVec S_ 1 := constantI S_ 1 1#1
  let main_v17 : IVec S_ 1 := (fun x v => Host.reduce IntOp.andi x v reducesTo_S2048_S_d0 h_S_) main_v16 main_c_5
  let main_v18 : IVec S_ 1 := andi main_v13 main_v17
  let main_v19 : FVec F S2048x2048 .f32 := Host.absf main_arg4
  let main_cst_6 : FVec F S_ .f32 := constant S_ .f32 0x7F800000#32
  let main_v20 : FVec F S2048x2048 .f32 := broadcastInDim S2048x2048 ![] bcast_S_S2048x2048 main_cst_6
  let main_v21 : IVec S2048x2048 1 := cmpf .olt main_v19 main_v20
  let main_c_7 : IVec S_ 1 := constantI S_ 1 1#1
  let main_v22 : IVec S_ 1 := (fun x v => Host.reduce IntOp.andi x v reducesTo_S2048x2048_S_d0_1 h_S_) main_v21 main_c_7
  let main_v23 : IVec S_ 1 := andi main_v18 main_v22
  main_v23

def fn {F : FTy → Type} [FloatOps F] (main_arg0 : FVec F S16384x2048 .f32) (main_arg1 : FVec F S2048x2048 .f32) (main_arg2 : FVec F S2048 .f32) (main_arg3 : FVec F S2048 .f32) (main_arg4 : FVec F S2048x2048 .f32) : IVec S_ 1 :=
  let main_v0 : FVec F S16384x2048 .f32 := Host.absf main_arg0
  let main_cst : FVec F S_ .f32 := constant S_ .f32 0x7F800000#32
  let main_v1 : FVec F S16384x2048 .f32 := broadcastInDim S16384x2048 ![] bcast_S_S16384x2048 main_cst
  let main_v2 : IVec S16384x2048 1 := cmpf .olt main_v0 main_v1
  let main_c : IVec S_ 1 := constantI S_ 1 1#1
  let main_v3 : IVec S_ 1 := (fun x v => Host.reduce IntOp.andi x v reducesTo_S16384x2048_S_d0_1 h_S_) main_v2 main_c
  let main_v4 : FVec F S2048x2048 .f32 := Host.absf main_arg1
  let main_cst_0 : FVec F S_ .f32 := constant S_ .f32 0x7F800000#32
  let main_v5 : FVec F S2048x2048 .f32 := broadcastInDim S2048x2048 ![] bcast_S_S2048x2048 main_cst_0
  let main_v6 : IVec S2048x2048 1 := cmpf .olt main_v4 main_v5
  let main_c_1 : IVec S_ 1 := constantI S_ 1 1#1
  let main_v7 : IVec S_ 1 := (fun x v => Host.reduce IntOp.andi x v reducesTo_S2048x2048_S_d0_1 h_S_) main_v6 main_c_1
  let main_v8 : IVec S_ 1 := andi main_v3 main_v7
  let main_v9 : FVec F S2048 .f32 := Host.absf main_arg2
  let main_cst_2 : FVec F S_ .f32 := constant S_ .f32 0x7F800000#32
  let main_v10 : FVec F S2048 .f32 := broadcastInDim S2048 ![] bcast_S_S2048 main_cst_2
  let main_v11 : IVec S2048 1 := cmpf .olt main_v9 main_v10
  let main_c_3 : IVec S_ 1 := constantI S_ 1 1#1
  let main_v12 : IVec S_ 1 := (fun x v => Host.reduce IntOp.andi x v reducesTo_S2048_S_d0 h_S_) main_v11 main_c_3
  let main_v13 : IVec S_ 1 := andi main_v8 main_v12
  let main_v14 : FVec F S2048 .f32 := Host.absf main_arg3
  let main_cst_4 : FVec F S_ .f32 := constant S_ .f32 0x7F800000#32
  let main_v15 : FVec F S2048 .f32 := broadcastInDim S2048 ![] bcast_S_S2048 main_cst_4
  let main_v16 : IVec S2048 1 := cmpf .olt main_v14 main_v15
  fn_part1 (F := F) main_arg4 main_v13 main_v16
-- ==== Kernel.lean ====
abbrev S16384x2048 : Shape := ⟨2, ![16384, 2048]⟩
abbrev S2048x2048 : Shape := ⟨2, ![2048, 2048]⟩
abbrev S2048 : Shape := ⟨1, ![2048]⟩
abbrev S2048x1 : Shape := ⟨2, ![2048, 1]⟩
abbrev S_ : Shape := ⟨0, ![]⟩
abbrev S2048x4096 : Shape := ⟨2, ![2048, 4096]⟩
abbrev S1x2048 : Shape := ⟨2, ![1, 2048]⟩
abbrev S256x2048 : Shape := ⟨2, ![256, 2048]⟩
abbrev S256x4096 : Shape := ⟨2, ![256, 4096]⟩

abbrev nBuf : Space → Nat
  | .hbm => 19
  | .vmem => 7
  | .smem => 0
  | _ => 0

abbrev bufTy : (tb : Table) → Fin (tcTables nBuf tb) → BufTy
  | .hbm, ⟨0, _⟩ => ⟨S16384x2048, .f32⟩
  | .hbm, ⟨1, _⟩ => ⟨S2048x2048, .f32⟩
  | .hbm, ⟨2, _⟩ => ⟨S2048, .f32⟩
  | .hbm, ⟨3, _⟩ => ⟨S2048, .f32⟩
  | .hbm, ⟨4, _⟩ => ⟨S2048x2048, .f32⟩
  | .hbm, ⟨5, _⟩ => ⟨S2048x2048, .f32⟩
  | .hbm, ⟨6, _⟩ => ⟨S2048x2048, .bf16⟩
  | .hbm, ⟨7, _⟩ => ⟨S2048x2048, .f32⟩
  | .hbm, ⟨8, _⟩ => ⟨S2048x1, .f32⟩
  | .hbm, ⟨9, _⟩ => ⟨S2048x2048, .f32⟩
  | .hbm, ⟨10, _⟩ => ⟨S2048x2048, .f32⟩
  | .hbm, ⟨11, _⟩ => ⟨S_, .f32⟩
  | .hbm, ⟨12, _⟩ => ⟨S2048x2048, .f32⟩
  | .hbm, ⟨13, _⟩ => ⟨S2048x2048, .f32⟩
  | .hbm, ⟨14, _⟩ => ⟨S2048x2048, .bf16⟩
  | .hbm, ⟨15, _⟩ => ⟨S2048x4096, .bf16⟩
  | .hbm, ⟨16, _⟩ => ⟨S1x2048, .f32⟩
  | .hbm, ⟨17, _⟩ => ⟨S1x2048, .f32⟩
  | .hbm, ⟨18, _⟩ => ⟨S16384x2048, .f32⟩
  | .local _ .vmem, ⟨0, _⟩ => ⟨S256x2048, .f32⟩
  | .local _ .vmem, ⟨1, _⟩ => ⟨S256x2048, .f32⟩
  | .local _ .vmem, ⟨2, _⟩ => ⟨S2048x4096, .bf16⟩
  | .local _ .vmem, ⟨3, _⟩ => ⟨S1x2048, .f32⟩
  | .local _ .vmem, ⟨4, _⟩ => ⟨S1x2048, .f32⟩
  | .local _ .vmem, ⟨5, _⟩ => ⟨S256x2048, .f32⟩
  | .local _ .vmem, ⟨6, _⟩ => ⟨S256x2048, .f32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  transposes_S2048x2048_S2048x2048_1_0 : S2048x2048.Transposes [1, 0] S2048x2048
  bitsLt_bf16_f32 : FTy.bits .bf16 < FTy.bits .f32
  shapeCasts_S2048_S2048x1 : S2048.ShapeCasts S2048x1
  bcast_S2048x1_S2048x2048_0_1 : S2048x1.BroadcastsInDim S2048x2048 (![0, 1] : Fin 2 → Fin S2048x2048.rank)
  bcast_S_S2048x2048 : S_.BroadcastsInDim S2048x2048 (![] : Fin 0 → Fin S2048x2048.rank)
  concatenates_S2048x2048_S2048x2048_S2048x4096_d1 : Shape.Concatenates [S2048x2048, S2048x2048] S2048x4096 1
  shapeCasts_S2048_S1x2048 : S2048.ShapeCasts S1x2048
  inb_S256x2048_S256x2048_0_0 : ∀ a, (![0, 0] : Fin 2 → Nat) a + S256x2048.size a ≤ S256x2048.size a
  h_S256x2048 : 0 < S256x2048.numel
  inb_S2048x4096_S2048x4096_0_0 : ∀ a, (![0, 0] : Fin 2 → Nat) a + S2048x4096.size a ≤ S2048x4096.size a
  h_S2048x4096 : 0 < S2048x4096.numel
  shapeCasts_S2048x4096_S2048x4096 : S2048x4096.ShapeCasts S2048x4096
  slices_S256x4096_o0_0_S256x2048 : S256x4096.Slices ![0, 0] S256x2048
  slices_S256x4096_o0_2048_S256x2048 : S256x4096.Slices ![0, 2048] S256x2048
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S256x2048 : S1x2048.Broadcasts S256x2048
  dot_S256x2048_S2048x4096_S256x4096_1_0_0_1_n_n_wf : DotDims.WF S256x2048 S2048x4096 S256x4096 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x2048.size a ≤ S16384x2048.size a
  hwx0_0 : ∀ i : grid0.Coords, EltTy.bits .f32 = 32 ∨ (Rect.block (s := S16384x2048) S256x2048.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2048x4096.size a ≤ S2048x4096.size a
  hwx0_1 : ∀ i : grid0.Coords, EltTy.bits .bf16 = 32 ∨ (Rect.block (s := S2048x4096) S2048x4096.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x2048.size a ≤ S1x2048.size a
  hwx0_2 : ∀ i : grid0.Coords, EltTy.bits .f32 = 32 ∨ (Rect.block (s := S1x2048) S1x2048.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x2048.size a ≤ S1x2048.size a
  hwx0_3 : ∀ i : grid0.Coords, EltTy.bits .f32 = 32 ∨ (Rect.block (s := S1x2048) S1x2048.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S256x2048.size a ≤ S16384x2048.size a
  hwx0_4 : ∀ i : grid0.Coords, EltTy.bits .f32 = 32 ∨ (Rect.block (s := S16384x2048) S256x2048.size (cc0_transform_4 i) (hinb0_4 i)).WholeWords (EltTy.packing .f32)

variable [Facts₀]

def dot_S256x2048_S2048x4096_S256x4096_1_0_0_1_n_n : DotDims S256x2048 S2048x4096 S256x4096 where
  lhsContracting := [1]
  rhsContracting := [0]
  lhsNonContracting := [0]
  rhsNonContracting := [1]
  lhsBatch := []
  rhsBatch := []
  wf := dot_S256x2048_S2048x4096_S256x4096_1_0_0_1_n_n_wf

abbrev win0_0 : Pipeline.Window sig grid0 :=
  Pipeline.Window.ofSpec (Memref.whole main_arg0) S256x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v9) S2048x4096.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v10) S1x2048.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v11) S1x2048.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v12) S256x2048.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S16384x2048 : Shape := ⟨2, ![16384, 2048]⟩
abbrev S2048x2048 : Shape := ⟨2, ![2048, 2048]⟩
abbrev S2048 : Shape := ⟨1, ![2048]⟩
abbrev S1x2048 : Shape := ⟨2, ![1, 2048]⟩
abbrev S_ : Shape := ⟨0, ![]⟩

abbrev nBuf : Space → Nat
  | .hbm => 29
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S2048x2048, .f32⟩
  | .hbm, ⟨2, _⟩ => ⟨S2048, .f32⟩
  | .hbm, ⟨3, _⟩ => ⟨S2048, .f32⟩
  | .hbm, ⟨4, _⟩ => ⟨S2048x2048, .f32⟩
  | .hbm, ⟨5, _⟩ => ⟨S2048x2048, .f32⟩
  | .hbm, ⟨6, _⟩ => ⟨S16384x2048, .f32⟩
  | .hbm, ⟨7, _⟩ => ⟨S1x2048, .f32⟩
  | .hbm, ⟨8, _⟩ => ⟨S16384x2048, .f32⟩
  | .hbm, ⟨9, _⟩ => ⟨S16384x2048, .f32⟩
  | .hbm, ⟨10, _⟩ => ⟨S16384x2048, .f32⟩
  | .hbm, ⟨11, _⟩ => ⟨S16384x2048, .f32⟩
  | .hbm, ⟨12, _⟩ => ⟨S_, .f32⟩
  | .hbm, ⟨13, _⟩ => ⟨S16384x2048, .f32⟩
  | .hbm, ⟨14, _⟩ => ⟨S16384x2048, .f32⟩
  | .hbm, ⟨15, _⟩ => ⟨S_, .f32⟩
  | .hbm, ⟨16, _⟩ => ⟨S16384x2048, .f32⟩
  | .hbm, ⟨17, _⟩ => ⟨S16384x2048, .f32⟩
  | .hbm, ⟨18, _⟩ => ⟨S1x2048, .f32⟩
  | .hbm, ⟨19, _⟩ => ⟨S16384x2048, .f32⟩
  | .hbm, ⟨20, _⟩ => ⟨S16384x2048, .f32⟩
  | .hbm, ⟨21, _⟩ => ⟨S2048x2048, .f32⟩
  | .hbm, ⟨22, _⟩ => ⟨S16384x2048, .f32⟩
  | .hbm, ⟨23, _⟩ => ⟨S16384x2048, .f32⟩
  | .hbm, ⟨24, _⟩ => ⟨S_, .f32⟩
  | .hbm, ⟨25, _⟩ => ⟨S16384x2048, .f32⟩
  | .hbm, ⟨26, _⟩ => ⟨S16384x2048, .f32⟩
  | .hbm, ⟨27, _⟩ => ⟨S16384x2048, .f32⟩
  | .hbm, ⟨28, _⟩ => ⟨S16384x2048, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_1 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩

abbrev nD : Nat := 1
abbrev τ : Topo := Topo.v7x

variable {F : FTy → Type} [FloatOps F]

class Facts₀ : Prop where
  transposes_S2048x2048_S2048x2048_1_0 : S2048x2048.Transposes [1, 0] S2048x2048
  bcast_S2048_S1x2048_1 : S2048.BroadcastsInDim S1x2048 (![1] : Fin 1 → Fin S1x2048.rank)
  bcast_S1x2048_S16384x2048_0_1 : S1x2048.BroadcastsInDim S16384x2048 (![0, 1] : Fin 2 → Fin S16384x2048.rank)
  bcast_S_S16384x2048 : S_.BroadcastsInDim S16384x2048 (![] : Fin 0 → Fin S16384x2048.rank)
  dot_S16384x2048_S2048x2048_S16384x2048_1_0_0_1_n_n_wf : DotDims.WF S16384x2048 S2048x2048 S16384x2048 [1] [0] [0] [1] [] []

variable [Facts₀]

def dot_S16384x2048_S2048x2048_S16384x2048_1_0_0_1_n_n : DotDims S16384x2048 S2048x2048 S16384x2048 where
  lhsContracting := [1]
  rhsContracting := [0]
  lhsNonContracting := [0]
  rhsNonContracting := [1]
  lhsBatch := []
  rhsBatch := []
  wf := dot_S16384x2048_S2048x2048_S16384x2048_1_0_0_1_n_n_wf

class Facts : Prop extends Facts₀ where

variable [Facts]
-- ==== Proof.LibMatmulRows.lean ====
/-
  GENERAL LEMMAS: the product of an [R, K] matrix with a [K, N] matrix — (A * B)(p, q) = sum over k of A(p, k) * B(k, q) —
  read at an index on extended reals, in the two spellings a kernel and a host program give it. Nothing here mentions a
  program; the extents R, K (the contracted axis: the lanes of A, the rows of B) and N are arbitrary.

  * idx2_ext: two rank-2 indices with the same coordinates are one index.
  * contraction_rows: a contraction of axis 1 of an [R, K] array with axis 0 of a [K, N] array (no batch axes), read at
    (p, q), is the sum over k : Fin K of l (p, k) * r (k, q); the dimension record enters only through four coordinate facts
    about its operand indices and the rank and extent of its contraction shape.
  * matmul_rows: the kernel's spelling — the matrix unit's product into a zero accumulator — at (p, q).
  * hostdot_rows: the host's spelling — dot_general — at (p, q).
  No law of extended-real arithmetic beyond reindexing a finite sum is used, so none of these needs finite inputs.
-/
import Idealize.ShloMosaic.PureOps.Ideal
import Idealize.ShloMosaic.PureOps.Ideal.Laws
import Idealize.ShloMosaic.Lib.ValueIdx

noncomputable section

namespace Cert.LibMatmulRows

open Idealize.ShloMosaic Idealize.ShloMosaic.ValueIdx
open scoped BigOperators

/-- Two rank-2 indices with the same coordinates are one index. -/
theorem idx2_ext {n0 n1 : ℕ} (f g : (⟨2, ![n0, n1]⟩ : Shape).Idx) (h0 : (f 0).val = (g 0).val) (h1 : (f 1).val = (g 1).val) :
    f = g :=
  funext fun d => Fin.ext (by
    match d with
    | ⟨0, _⟩ => exact h0
    | ⟨1, _⟩ => exact h1)

/-- A contraction of the lanes of an [R, K] array with the rows of a [K, N] array, read at (p, q): the sum over k of
    l(p, k) * r(k, q). The dimension record enters through four coordinate facts and the extent of its one contracted
    axis. -/
theorem contraction_rows {R K N : ℕ} (d : DotDims ⟨2, ![R, K]⟩ ⟨2, ![K, N]⟩ ⟨2, ![R, N]⟩)
    (hrank : d.contr.rank = 1) (hsize : d.contr.size ⟨0, by omega⟩ = K)
    (hl0 : ∀ (i : (⟨2, ![R, N]⟩ : Shape).Idx) (s : d.contr.Idx), (d.lhsIdx i s 0).val = (i 0).val)
    (hl1 : ∀ (i : (⟨2, ![R, N]⟩ : Shape).Idx) (s : d.contr.Idx), (d.lhsIdx i s 1).val = (s ⟨0, by omega⟩).val)
    (hr0 : ∀ (i : (⟨2, ![R, N]⟩ : Shape).Idx) (s : d.contr.Idx), (d.rhsIdx i s 0).val = (s ⟨0, by omega⟩).val)
    (hr1 : ∀ (i : (⟨2, ![R, N]⟩ : Shape).Idx) (s : d.contr.Idx), (d.rhsIdx i s 1).val = (i 1).val)
    (l : (⟨2, ![R, K]⟩ : Shape).Idx → EReal) (r : (⟨2, ![K, N]⟩ : Shape).Idx → EReal) (p : Fin R) (q : Fin N) :
    ∑ s : d.contr.Idx, l (d.lhsIdx (ix2 p q) s) * r (d.rhsIdx (ix2 p q) s) = ∑ k : Fin K, l (ix2 p k) * r (ix2 k q) := by
  rw [← Equiv.sum_comp (contrEquiv1 d K hrank hsize).symm]
  refine Finset.sum_congr rfl fun k _ => ?_
  have hk := contrEquiv1_symm_val d K hrank hsize k
  have el : d.lhsIdx (ix2 p q) ((contrEquiv1 d K hrank hsize).symm k) = ix2 p k :=
    idx2_ext _ _ (hl0 _ _) ((hl1 _ _).trans hk)
  have er : d.rhsIdx (ix2 p q) ((contrEquiv1 d K hrank hsize).symm k) = ix2 k q :=
    idx2_ext _ _ ((hr0 _ _).trans hk) (hr1 _ _)
  rw [el, er]

/-- The matrix unit's product into a zero accumulator, read at (p, q). -/
theorem matmul_rows {R K N : ℕ} (d : DotDims ⟨2, ![R, K]⟩ ⟨2, ![K, N]⟩ ⟨2, ![R, N]⟩)
    (hrank : d.contr.rank = 1) (hsize : d.contr.size ⟨0, by omega⟩ = K)
    (hl0 : ∀ (i : (⟨2, ![R, N]⟩ : Shape).Idx) (s : d.contr.Idx), (d.lhsIdx i s 0).val = (i 0).val)
    (hl1 : ∀ (i : (⟨2, ![R, N]⟩ : Shape).Idx) (s : d.contr.Idx), (d.lhsIdx i s 1).val = (s ⟨0, by omega⟩).val)
    (hr0 : ∀ (i : (⟨2, ![R, N]⟩ : Shape).Idx) (s : d.contr.Idx), (d.rhsIdx i s 0).val = (s ⟨0, by omega⟩).val)
    (hr1 : ∀ (i : (⟨2, ![R, N]⟩ : Shape).Idx) (s : d.contr.Idx), (d.rhsIdx i s 1).val = (i 1).val)
    {φ₁ φ₂ : FTy} (l : FVec Ideal ⟨2, ![R, K]⟩ φ₁) (r : FVec Ideal ⟨2, ![K, N]⟩ φ₂) (p : Fin R) (q : Fin N) :
    matmul d none l r (constant (F := Ideal) ⟨2, ![R, N]⟩ .f32 0x00000000#32) (ix2 p q)
      = ∑ k : Fin K, l (ix2 p k) * r (ix2 k q) :=
  (Ideal.matmul_constant_zero_apply d none l r (ix2 p q)).trans
    (contraction_rows d hrank hsize hl0 hl1 hr0 hr1 l r p q)

/-- The host's dot_general, read at (p, q). -/
theorem hostdot_rows {R K N : ℕ} (d : DotDims ⟨2, ![R, K]⟩ ⟨2, ![K, N]⟩ ⟨2, ![R, N]⟩)
    (hrank : d.contr.rank = 1) (hsize : d.contr.size ⟨0, by omega⟩ = K)
    (hl0 : ∀ (i : (⟨2, ![R, N]⟩ : Shape).Idx) (s : d.contr.Idx), (d.lhsIdx i s 0).val = (i 0).val)
    (hl1 : ∀ (i : (⟨2, ![R, N]⟩ : Shape).Idx) (s : d.contr.Idx), (d.lhsIdx i s 1).val = (s ⟨0, by omega⟩).val)
    (hr0 : ∀ (i : (⟨2, ![R, N]⟩ : Shape).Idx) (s : d.contr.Idx), (d.rhsIdx i s 0).val = (s ⟨0, by omega⟩).val)
    (hr1 : ∀ (i : (⟨2, ![R, N]⟩ : Shape).Idx) (s : d.contr.Idx), (d.rhsIdx i s 1).val = (i 1).val)
    (l : FVec Ideal ⟨2, ![R, K]⟩ .f32) (r : FVec Ideal ⟨2, ![K, N]⟩ .f32) (p : Fin R) (q : Fin N) :
    Host.dotGeneral d none l r (ix2 p q) = ∑ k : Fin K, l (ix2 p k) * r (ix2 k q) :=
  (Ideal.dotGeneral_apply d none .single l r (ix2 p q)).trans
    (contraction_rows d hrank hsize hl0 hl1 hr0 hr1 l r p q)

end Cert.LibMatmulRows

end
-- ==== Proof.Spec.lean ====
/-
  The mathematics of this certificate, with no program in sight.

  Inputs: a batch x : [16384, 2048], weights W : [2048, 2048], a bias b : [2048], a per-lane modulation pm : [2048] and a
  connectivity mask : [2048, 2048], all over the extended reals. Writing c for the constant 2^-12 (= 0.5 / 2048),
  xs(p, q) = x(p, q) * pm(q) for the modulated input and sigma(z) = 1 / (1 + e^-z), the result at row p and lane q is

      xs(p, q) + sigma( sum_k x(p, k) * W(q, k) + b(q) ) * ( xs(p, q) * I(p, q) )

  where the integration term I(p, q) can be arranged in two ways:

    folded    :  sum_k x(p, k) * ((mask(q, k) * pm(k)) * c)     -- modulation and scale carried by the weights
    unfolded  :  (sum_k (x(p, k) * pm(k)) * mask(q, k)) * c       -- modulation on the input, scale applied last

  The two agree on ALL extended reals: the products are rearranged by commutativity and associativity alone, and c is a
  non-negative real, which distributes over an extended-real sum even where infinities of both signs meet
  (`sum_mul_of_nonneg_of_ne_top`). No finiteness of the inputs is used.
-/
import Idealize.ShloMosaic.PureOps.Ideal
import Idealize.ShloMosaic.Lib.ValueIdx

noncomputable section

namespace Cert.Spec

open Idealize.ShloMosaic Idealize.ShloMosaic.ValueIdx
open scoped BigOperators

/-! ## A non-negative real factor moves out of a finite sum of extended reals -/

/-- For `0 ≤ c < +∞`, multiplying every term of a finite sum by `c` multiplies the sum by `c`. (For `c = +∞` this
    fails: `1 · ∞ + (-1) · ∞ = -∞` but `(1 + -1) · ∞ = 0`.) -/
theorem sum_mul_of_nonneg_of_ne_top {ι : Type} (s : Finset ι) (f : ι → EReal) {c : EReal} (h0 : 0 ≤ c) (ht : c ≠ ⊤) :
    ∑ k ∈ s, f k * c = (∑ k ∈ s, f k) * c := by
  classical
  induction s using Finset.induction_on with
  | empty => simp
  | insert a s ha ih =>
    rw [Finset.sum_insert ha, Finset.sum_insert ha, ih, EReal.right_distrib_of_nonneg_of_ne_top h0 ht]

/-! ## The two float words of the programs -/

/-- The word `0x3F800000` is the number one. -/
theorem word_one : Ideal.ofBits .f32 0x3F800000#32 = 1 := by
  simp [Ideal.ofBits, Ideal.ieee, -EReal.coe_mul]; norm_num

/-- The scale: the word `0x39800000`, which is `2^-12 = 1 / 4096`. -/
def scale : EReal := Ideal.ofBits .f32 0x39800000#32

theorem scale_eq : scale = ((1 / 4096 : ℝ) : EReal) := by
  unfold scale
  simp [Ideal.ofBits, Ideal.ieee, -EReal.coe_mul]; norm_num

theorem scale_nonneg : 0 ≤ scale := by
  rw [scale_eq]; exact EReal.coe_nonneg.2 (by norm_num)

theorem scale_ne_top : scale ≠ ⊤ := by
  rw [scale_eq]; exact EReal.coe_ne_top _

/-! ## The result, index by index -/

/-- A matrix and a vector over the extended reals, at literal extents. -/
abbrev Mat (a b : ℕ) : Type := (⟨2, ![a, b]⟩ : Shape).Idx → EReal
abbrev Row (a : ℕ) : Type := (⟨1, ![a]⟩ : Shape).Idx → EReal

/-- Lane `q` of the LEFT half of a 4096-lane row (the lanes that carry the linear layer's weights). -/
abbrev lo (q : Fin 2048) : Fin 4096 := ⟨q.val, by omega⟩
/-- Lane `q` of the RIGHT half (the lanes that carry the modulated, scaled mask). -/
abbrev hi (q : Fin 2048) : Fin 4096 := ⟨2048 + q.val, by omega⟩

/-- The modulated input `xs(p, q) = x(p, q) * pm(q)`. -/
def modulated (x : Mat 16384 2048) (pm : Row 2048) (p : Fin 16384) (q : Fin 2048) : EReal :=
  x (ix2 p q) * pm (ix1 q)

/-- The gate `sigma(sum_k x(p, k) * W(q, k) + b(q))`. -/
def gate (x : Mat 16384 2048) (W : Mat 2048 2048) (b : Row 2048) (p : Fin 16384) (q : Fin 2048) : EReal :=
  Ideal.logistic ((∑ k : Fin 2048, x (ix2 p k) * W (ix2 q k)) + b (ix1 q))

/-- The integration term, FOLDED: modulation and scale carried by the weights. -/
def integration (x : Mat 16384 2048) (pm : Row 2048) (mask : Mat 2048 2048) (p : Fin 16384) (q : Fin 2048) : EReal :=
  ∑ k : Fin 2048, x (ix2 p k) * ((mask (ix2 q k) * pm (ix1 k)) * scale)

/-- The integration term, UNFOLDED: modulation on the input, the scale applied after the sum. -/
def integration' (x : Mat 16384 2048) (pm : Row 2048) (mask : Mat 2048 2048) (p : Fin 16384) (q : Fin 2048) : EReal :=
  (∑ k : Fin 2048, modulated x pm p k * mask (ix2 q k)) * scale

/-- THE LAW that joins the two programs: the two arrangements of the integration term are one extended real. -/
theorem integration_eq (x : Mat 16384 2048) (pm : Row 2048) (mask : Mat 2048 2048) (p : Fin 16384) (q : Fin 2048) :
    integration' x pm mask p q = integration x pm mask p q := by
  unfold integration' integration modulated
  rw [← sum_mul_of_nonneg_of_ne_top _ _ scale_nonneg scale_ne_top]
  refine Finset.sum_congr rfl fun k _ => ?_
  rw [mul_assoc (x (ix2 p k)), mul_comm (pm (ix1 k)), mul_assoc (x (ix2 p k))]

/-- The result array as ONE function of the five argument arrays. -/
def out (x : Mat 16384 2048) (W : Mat 2048 2048) (b : Row 2048) (pm : Row 2048) (mask : Mat 2048 2048) : Mat 16384 2048 :=
  fun j => modulated x pm (j 0) (j 1)
    + gate x W b (j 0) (j 1) * (modulated x pm (j 0) (j 1) * integration x pm mask (j 0) (j 1))

theorem out_apply (x : Mat 16384 2048) (W : Mat 2048 2048) (b : Row 2048) (pm : Row 2048) (mask : Mat 2048 2048)
    (p : Fin 16384) (q : Fin 2048) :
    out x W b pm mask (ix2 p q) = modulated x pm p q + gate x W b p q * (modulated x pm p q * integration x pm mask p q) := rfl

end Cert.Spec

end
-- ==== Proof.KernelValue.lean ====
/-
  What the kernel body stores, at one entry of its block.

  The body loads a [256, 2048] block X of the input, the whole [2048, 4096] weight matrix R, and two [1, 2048] rows B
  (bias) and P (modulation). One product X * R gives a [256, 4096] block whose left half feeds the gate and whose right
  half is the integration term. At row p and lane q of the block the stored value is

      X(p, q) * P(0, q) + sigma( sum_k X(p, k) * R(k, q) + B(0, q) ) * ( (X(p, q) * P(0, q)) * sum_k X(p, k) * R(k, 2048 + q) ).

  Every step is a reading of one operation at an index: the rounding to bf16 on the way into the product is the identity
  on extended reals, a slice shifts the lane by its offset, a one-row broadcast reads the row, and the matrix unit's
  product into a zero accumulator is the plain sum over the contracted axis.
-/
import proofs.«143682_j27882927685863_2_alg».proof.Proof.Gen.KernelIdeal.Skeleton
import proofs.«143682_j27882927685863_2_alg».proof.Proof.LibMatmulRows
import proofs.«143682_j27882927685863_2_alg».proof.Proof.Spec
import Idealize.ShloMosaic.Lib.Pipeline.Value
import Idealize.ShloMosaic.Lib.ValueLayout

noncomputable section

namespace Cert.KernelValue

open Cert.KernelIdeal Cert.KernelIdeal.Gen Idealize.ShloMosaic Idealize.ShloMosaic.ValueIdx Cert.Spec
open scoped BigOperators

/-- The logistic function acts entry by entry. -/
theorem logistic_apply {s : Shape} {φ : FTy} (a : FVec Ideal s φ) (i : s.Idx) : logistic a i = Ideal.logistic (a i) := rfl

/-- A [1, 2048] row (cast to its own shape) broadcast over the 256 rows of a block reads the row at lane `q`. -/
theorem row_at (v : Vec Ideal S1x2048 .f32) (h1 : S1x2048.ShapeCasts S1x2048) (h2 : S1x2048.Broadcasts S256x2048)
    (p : Fin 256) (q : Fin 2048) :
    broadcastTo S256x2048 (shapeCast S1x2048 v h1) h2 (ix2 p q) = v (ix2 (0 : Fin 1) q) := by
  rw [shapeCast_self]
  exact broadcastTo_1b_ab_apply v h2 p q

/-- The left half of a [256, 4096] block, at (p, q), is the block at lane `lo q`. -/
theorem left_half_at (M : FVec Ideal S256x4096 .f32) (h : S256x4096.Slices ![0, 0] S256x2048) (p : Fin 256) (q : Fin 2048) :
    extractStridedSlice S256x2048 ![0, 0] M h (ix2 p q) = M (ix2 p (lo q)) :=
  extractStridedSlice_apply _ M h (ix2 p q) (ix2 p (lo q)) fun a => by
    match a with
    | ⟨0, _⟩ => show p.val = 0 + p.val; omega
    | ⟨1, _⟩ => show q.val = 0 + q.val; omega

/-- The right half, at (p, q), is the block at lane `hi q`. -/
theorem right_half_at (M : FVec Ideal S256x4096 .f32) (h : S256x4096.Slices ![0, 2048] S256x2048) (p : Fin 256) (q : Fin 2048) :
    extractStridedSlice S256x2048 ![0, 2048] M h (ix2 p q) = M (ix2 p (hi q)) :=
  extractStridedSlice_apply _ M h (ix2 p q) (ix2 p (hi q)) fun a => by
    match a with
    | ⟨0, _⟩ => show p.val = 0 + p.val; omega
    | ⟨1, _⟩ => show 2048 + q.val = 2048 + q.val; rfl

/-! ### The printed product's dimension record: which operand coordinate is which -/

theorem lhs_row (i : S256x4096.Idx) (s : dot_S256x2048_S2048x4096_S256x4096_1_0_0_1_n_n.contr.Idx) :
    (dot_S256x2048_S2048x4096_S256x4096_1_0_0_1_n_n.lhsIdx i s 0).val = (i 0).val := by
  unfold DotDims.lhsIdx
  rw [dif_neg (show ¬(0 : Fin S256x2048.rank) ∈ dot_S256x2048_S2048x4096_S256x4096_1_0_0_1_n_n.lhsBatch by decide),
    dif_pos (show (0 : Fin S256x2048.rank) ∈ dot_S256x2048_S2048x4096_S256x4096_1_0_0_1_n_n.lhsNonContracting by decide)]
  rfl

theorem lhs_lane (i : S256x4096.Idx) (s : dot_S256x2048_S2048x4096_S256x4096_1_0_0_1_n_n.contr.Idx) :
    (dot_S256x2048_S2048x4096_S256x4096_1_0_0_1_n_n.lhsIdx i s 1).val = (s ⟨0, by decide⟩).val :=
  dot_S256x2048_S2048x4096_S256x4096_1_0_0_1_n_n.lhsIdx_val_of_single rfl i s

theorem rhs_row (i : S256x4096.Idx) (s : dot_S256x2048_S2048x4096_S256x4096_1_0_0_1_n_n.contr.Idx) :
    (dot_S256x2048_S2048x4096_S256x4096_1_0_0_1_n_n.rhsIdx i s 0).val = (s ⟨0, by decide⟩).val :=
  dot_S256x2048_S2048x4096_S256x4096_1_0_0_1_n_n.rhsIdx_val_of_single rfl i s

theorem rhs_lane (i : S256x4096.Idx) (s : dot_S256x2048_S2048x4096_S256x4096_1_0_0_1_n_n.contr.Idx) :
    (dot_S256x2048_S2048x4096_S256x4096_1_0_0_1_n_n.rhsIdx i s 1).val = (i 1).val := by
  unfold DotDims.rhsIdx
  rw [dif_neg (show ¬(1 : Fin S2048x4096.rank) ∈ dot_S256x2048_S2048x4096_S256x4096_1_0_0_1_n_n.rhsBatch by decide),
    dif_pos (show (1 : Fin S2048x4096.rank) ∈ dot_S256x2048_S2048x4096_S256x4096_1_0_0_1_n_n.rhsNonContracting by decide)]
  rfl

/-- The body's product into a zero accumulator, at row `p` and lane `r` of the [256, 4096] block. -/
theorem product_at (l : FVec Ideal S256x2048 .bf16) (w : FVec Ideal S2048x4096 .bf16) (p : Fin 256) (r : Fin 4096) :
    matmul dot_S256x2048_S2048x4096_S256x4096_1_0_0_1_n_n none l w (constant (F := Ideal) S256x4096 .f32 0x00000000#32) (ix2 p r)
      = ∑ k : Fin 2048, l (ix2 p k) * w (ix2 k r) :=
  LibMatmulRows.matmul_rows dot_S256x2048_S2048x4096_S256x4096_1_0_0_1_n_n rfl rfl lhs_row lhs_lane rhs_row rhs_lane l w p r

/-- THE STORED VALUE at row `p` and lane `q` of the block, from the four loaded values. -/
theorem payload_at (v0 : Vec Ideal S256x2048 .f32) (v2 : Vec Ideal S2048x4096 .bf16) (v7 v12 : Vec Ideal S1x2048 .f32)
    (p : Fin 256) (q : Fin 2048) :
    k0_pay1 v0 v2 v7 v12 (ix2 p q)
      = v0 (ix2 p q) * v12 (ix2 (0 : Fin 1) q)
        + Ideal.logistic ((∑ k : Fin 2048, v0 (ix2 p k) * v2 (ix2 k (lo q))) + v7 (ix2 (0 : Fin 1) q))
          * ((v0 (ix2 p q) * v12 (ix2 (0 : Fin 1) q)) * ∑ k : Fin 2048, v0 (ix2 p k) * v2 (ix2 k (hi q))) := by
  unfold k0_pay1
  rw [addf_apply, mulf_apply, mulf_apply, logistic_apply, addf_apply, mulf_apply, mulf_apply,
    row_at, row_at, left_half_at, right_half_at, product_at, product_at, shapeCast_self]
  rfl

end Cert.KernelValue

end
-- ==== Proof.LibLayout.lean ====
/-
  Layout operations read at an index given by coordinates: the forms a row-wise normalization meets and the
  library does not yet have.

  * a column of row statistics: a vector `[a]` cast to `[a, 1]` (`keepdims`), and that column broadcast back over
    the `b` lanes of every row, `[a, 1] → [a, b]`;
  * one matrix broadcast over a new leading axis, `[1, b, c] → [a, b, c]`;
  * the rows of a `[4096, 768]` block regrouped as `[4, 1024, 768]` and back: row `r` is group `r / 1024`,
    member `r % 1024`, because both arrays list their entries in the same row-major order;
  * a sum over the lane axis of a matrix, read at row `r`: the sum over `k` of the entries `(r, k)`.
-/
import Idealize.ShloMosaic.Lib.ValueLayout
import Idealize.ShloMosaic.PureOps.Ideal.Laws

noncomputable section

namespace Cert.LibLayout

open Idealize.ShloMosaic Idealize.ShloMosaic.ValueIdx

variable {α : Type}

/-- An `[a]` vector cast to a column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast over `b` lanes reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- One `[1, b, c]` matrix broadcast over a leading axis of `a` copies reads, at `(p, q, r)`, the matrix at `(q, r)`. -/
theorem broadcastTo_1bc_abc_apply {a b c : ℕ} (v : (⟨3, ![1, b, c]⟩ : Shape).Idx → α)
    (h : (⟨3, ![1, b, c]⟩ : Shape).Broadcasts ⟨3, ![a, b, c]⟩) (p : Fin a) (q : Fin b) (r : Fin c) :
    broadcastTo ⟨3, ![a, b, c]⟩ v h (ix3 p q r) = v (ix3 (0 : Fin 1) q r) := by
  refine broadcastTo_apply v h (ix3 p q r) (ix3 (0 : Fin 1) q r) fun ax => ?_
  match ax with
  | ⟨0, _⟩ => rfl
  | ⟨1, _⟩ =>
    show q.val = if b = 1 then 0 else q.val
    split
    · have := q.isLt; omega
    · rfl
  | ⟨2, _⟩ =>
    show r.val = if c = 1 then 0 else r.val
    split
    · have := r.isLt; omega
    · rfl

/-- The 4096 rows regrouped as 4 groups of 1024: entry `(g, n, k)` of the regrouped array is row `g · 1024 + n`. -/
theorem shapeCast_split_apply (x : (⟨2, ![4096, 768]⟩ : Shape).Idx → α)
    (h : (⟨2, ![4096, 768]⟩ : Shape).ShapeCasts ⟨3, ![4, 1024, 768]⟩) (g : Fin 4) (n : Fin 1024) (k : Fin 768) :
    shapeCast ⟨3, ![4, 1024, 768]⟩ x h (ix3 g n k) = x (ix2 (⟨g.val * 1024 + n.val, by omega⟩ : Fin 4096) k) :=
  shapeCast_apply x h _ _ (by
    rw [Shape.rowMajor_val_two, Shape.rowMajor_val_three]
    rfl)

/-- The 4 groups of 1024 rows listed again as 4096 rows: row `r` is member `r % 1024` of group `r / 1024`. -/
theorem shapeCast_merge_apply (y : (⟨3, ![4, 1024, 768]⟩ : Shape).Idx → α)
    (h : (⟨3, ![4, 1024, 768]⟩ : Shape).ShapeCasts ⟨2, ![4096, 768]⟩) (r : Fin 4096) (k : Fin 768) :
    shapeCast ⟨2, ![4096, 768]⟩ y h (ix2 r k)
      = y (ix3 (⟨r.val / 1024, by omega⟩ : Fin 4) (⟨r.val % 1024, by omega⟩ : Fin 1024) k) :=
  shapeCast_apply y h _ _ (by
    rw [Shape.rowMajor_val_two, Shape.rowMajor_val_three]
    show (r.val / 1024 * 1024 + r.val % 1024) * 768 + k.val = r.val * 768 + k.val
    omega)

/-- Over row `r` of a matrix, the index with lane `k` put back on the summed axis is `(r, k)`. -/
theorem lift_row {a b : ℕ} (h : Shape.Reduces ⟨2, ![a, b]⟩ [1] ⟨1, ![a]⟩) (r : Fin a) (k : Fin b) :
    h.lift (ix1 r) k = ix2 r k := by
  funext c
  refine Fin.ext ?_
  match c with
  | ⟨0, _⟩ => rfl
  | ⟨1, _⟩ => rfl

/-- A float sum over the lane axis of a matrix, read at row `r` at the exact instance: the sum of the row's entries. -/
theorem laneSum_apply {a b : ℕ} (v : FVec Ideal ⟨2, ![a, b]⟩ .f32) (h : Shape.Reduces ⟨2, ![a, b]⟩ [1] ⟨1, ![a]⟩)
    (hφ : FKind.Formats .f32) (hacc : (0x00000000#32 : BitVec 32) = FKind.add.neutral .f32 hφ) (r : Fin a) :
    multiReduction .add [1] ⟨1, ![a]⟩ v 0x00000000#32 h hφ hacc (ix1 r) = ∑ k : Fin b, v (ix2 r k) :=
  (Ideal.multiReduction_add_single v 0x00000000#32 h hφ hacc (ix1 r)).trans
    (Finset.sum_congr rfl fun k _ => congrArg v (lift_row h r k))

end Cert.LibLayout

end
-- ==== Proof.HostPrefix.lean ====
/-
  What the region finds in the three arrays @main computes before it: the concatenated weights, the bias row and the
  modulation row.

  The weights R : [2048, 4096] are two [2048, 2048] matrices set side by side along the lanes:
      R(k, q)        = W^T(k, q)                          = W(q, k)                        for the left half,
      R(k, 2048 + q) = (mask^T(k, q) * pm(k)) * c         = (mask(q, k) * pm(k)) * c       for the right half,
  where pm enters as a column [2048, 1] broadcast along the lanes and c is the scalar word 0x39800000 broadcast everywhere;
  the roundings to bf16 are the identity on extended reals. The bias and the modulation are the [2048] vectors viewed as
  one row [1, 2048].
-/
import proofs.«143682_j27882927685863_2_alg».proof.Proof.Gen.KernelIdeal.Frame
import proofs.«143682_j27882927685863_2_alg».proof.Proof.Spec
import proofs.«143682_j27882927685863_2_alg».proof.Proof.LibLayout
import Idealize.ShloMosaic.Lib.StableHlo.Run
import Idealize.ShloMosaic.Lib.Pipeline.Value
import Idealize.ShloMosaic.Lib.ValueLayout
import Idealize.ShloMosaic.PureOps.Ideal

noncomputable section

namespace Cert.HostPrefix

open Cert.KernelIdeal Cert.KernelIdeal.Gen Idealize.ShloMosaic Idealize.ShloMosaic.TcCoe Idealize.SL.Sem
open Idealize.ShloMosaic.StableHlo Idealize.ShloMosaic.ValueIdx Cert.Spec

/-! ## The concatenated weights, as a term and at an index -/

/-- The [2048, 4096] weight matrix as @main computes it from W, pm and mask. -/
def weights (W : FVec Ideal S2048x2048 .f32) (pm : FVec Ideal S2048 .f32) (mask : FVec Ideal S2048x2048 .f32) :
    FVec Ideal S2048x4096 .bf16 :=
  concatenate S2048x4096 1
    [⟨S2048x2048, truncf .bf16 (transpose S2048x2048 [1, 0] W transposes_S2048x2048_S2048x2048_1_0) bitsLt_bf16_f32⟩,
     ⟨S2048x2048, truncf .bf16
        (mulf
          (mulf (transpose S2048x2048 [1, 0] mask transposes_S2048x2048_S2048x2048_1_0)
            (broadcastInDim S2048x2048 ![0, 1] bcast_S2048x1_S2048x2048_0_1 (shapeCast S2048x1 pm shapeCasts_S2048_S2048x1)))
          (broadcastInDim S2048x2048 ![] bcast_S_S2048x2048 (constant (F := Ideal) S_ .f32 0x39800000#32)))
        bitsLt_bf16_f32⟩]
    concatenates_S2048x2048_S2048x2048_S2048x4096_d1

/-- The left half holds the transposed weights: row `k`, lane `q` is `W(q, k)`. -/
theorem weights_lo (W : FVec Ideal S2048x2048 .f32) (pm : FVec Ideal S2048 .f32) (mask : FVec Ideal S2048x2048 .f32)
    (k q : Fin 2048) : weights W pm mask (ix2 k (lo q)) = W (ix2 q k) := by
  unfold weights
  refine (concatenate_pair_apply_left (t := S2048x4096) (s₁ := S2048x2048) (s₂ := S2048x2048) (1 : Fin 2) _ _ concatenates_S2048x2048_S2048x2048_S2048x4096_d1 (ix2 k (lo q)) rfl
    (ix2 k q) (fun b => by match b with | ⟨0, _⟩ => rfl | ⟨1, _⟩ => rfl)).trans ?_
  rw [truncf_apply]
  exact transpose_ix2_apply W _ k q

/-- A column [2048, 1] broadcast along the lanes reads its row. -/
theorem column_at (v : FVec Ideal S2048x1 .f32) (k q : Fin 2048) :
    broadcastInDim S2048x2048 ![0, 1] bcast_S2048x1_S2048x2048_0_1 v (ix2 k q) = v (ix2 k (0 : Fin 1)) :=
  broadcastInDim_apply _ bcast_S2048x1_S2048x2048_0_1 v (ix2 k q) (ix2 k (0 : Fin 1)) fun a => by
    match a with
    | ⟨0, _⟩ => show k.val = if (2048 : Nat) = 1 then 0 else k.val; rw [if_neg (by decide)]
    | ⟨1, _⟩ => show 0 = if (1 : Nat) = 1 then 0 else q.val; rw [if_pos rfl]

/-- The scalar word broadcast everywhere reads the scale. -/
theorem scalar_at (k q : Fin 2048) :
    broadcastInDim S2048x2048 ![] bcast_S_S2048x2048 (constant (F := Ideal) S_ .f32 0x39800000#32) (ix2 k q) = scale :=
  (broadcastInDim_apply _ bcast_S_S2048x2048 (constant (F := Ideal) S_ .f32 0x39800000#32) (ix2 k q) ix0
    (fun a => a.elim0)).trans rfl

/-- The right half holds the modulated, scaled, transposed mask: row `k`, lane `2048 + q` is `(mask(q, k) * pm(k)) * c`. -/
theorem weights_hi (W : FVec Ideal S2048x2048 .f32) (pm : FVec Ideal S2048 .f32) (mask : FVec Ideal S2048x2048 .f32)
    (k q : Fin 2048) : weights W pm mask (ix2 k (hi q)) = (mask (ix2 q k) * pm (ix1 k)) * scale := by
  unfold weights
  refine (concatenate_pair_apply_right (t := S2048x4096) (s₁ := S2048x2048) (s₂ := S2048x2048) (1 : Fin 2) _ _ concatenates_S2048x2048_S2048x2048_S2048x4096_d1 (ix2 k (hi q)) rfl rfl
    (ix2 k q) (fun b hb => by
      match b with
      | ⟨0, _⟩ => rfl
      | ⟨1, _⟩ => exact absurd rfl hb)
    (show q.val + 2048 = 2048 + q.val by omega)).trans ?_
  rw [truncf_apply, mulf_apply, mulf_apply, column_at, scalar_at, LibLayout.shapeCast_a_a1_apply]
  exact congrArg (fun z => z * pm (ix1 k) * scale) (transpose_ix2_apply mask _ k q)

/-- A [2048] vector viewed as one row reads, at lane `q`, its entry `q`. -/
theorem row_cast_at (v : FVec Ideal S2048 .f32) (q : Fin 2048) :
    shapeCast S1x2048 v shapeCasts_S2048_S1x2048 (ix2 (0 : Fin 1) q) = v (ix1 q) :=
  shapeCast_a_1a_apply v shapeCasts_S2048_S1x2048 (0 : Fin 1) q

/-! ## The arrays as the region finds them -/

variable (m : (ℓ : Loc nD τ sig) → Buf (Elt Ideal) ℓ)

/-- The weights window's array. -/
theorem V_weights (c : Dev nD) :
    (V m c main_v9 : S2048x4096.Idx → EReal)
      = weights (m ((c : Thread nD τ).loc main_arg1)) (m ((c : Thread nD τ).loc main_arg3)) (m ((c : Thread nD τ).loc main_arg4)) := by
  dsimp only [Gen.V, Gen.hostOps0]; after_results; rfl

/-- The bias window's array. -/
theorem V_bias (c : Dev nD) :
    (V m c main_v10 : S1x2048.Idx → EReal) = shapeCast S1x2048 (m ((c : Thread nD τ).loc main_arg2)) shapeCasts_S2048_S1x2048 := by
  dsimp only [Gen.V, Gen.hostOps0]; after_results; rfl

/-- The modulation window's array. -/
theorem V_modulation (c : Dev nD) :
    (V m c main_v11 : S1x2048.Idx → EReal) = shapeCast S1x2048 (m ((c : Thread nD τ).loc main_arg3)) shapeCasts_S2048_S1x2048 := by
  dsimp only [Gen.V, Gen.hostOps0]; after_results; rfl

end Cert.HostPrefix

end
-- ==== Proof.KernelRun.lean ====
/-
  From blocks to the array: the kernel's result array is the specification.

  The grid has 64 points. At point t the input window holds rows 256 t … 256 t + 255 of x (all 2048 lanes), the weights, bias
  and modulation windows hold their whole arrays, and the output window writes back rows 256 t … 256 t + 255 of the result.
  So entry (p, q) of what point t writes back is the stored value of `KernelValue.payload_at` with
      X(p, k) = x(256 t + p, k),   R = the concatenated weights,   B(0, q) = b(q),   P(0, q) = pm(q),
  which is `Spec.out` at (256 t + p, q). Row r of the array lies in the block of point r / 256, so the blocks cover the
  array and it ends holding `Spec.out` of the five argument arrays.
-/
import proofs.«143682_j27882927685863_2_alg».proof.Proof.Gen.KernelIdeal.Value
import proofs.«143682_j27882927685863_2_alg».proof.Proof.KernelValue
import proofs.«143682_j27882927685863_2_alg».proof.Proof.HostPrefix
import proofs.«143682_j27882927685863_2_alg».proof.Proof.Spec

noncomputable section

namespace Cert.KernelRun

open Cert.KernelIdeal Cert.KernelIdeal.Gen Idealize.ShloMosaic Idealize.ShloMosaic.TcCoe Idealize.SL.Sem
open Idealize.ShloMosaic.ValueIdx Cert.Spec
open Idealize.ShloMosaic.Pipeline (Dat)
open scoped BigOperators

variable (m : (ℓ : Loc nD τ sig) → Buf (Elt Ideal) ℓ) (ρ : Dev nD → PrngReg)

/-! ## The argument arrays, typed as the specification takes them -/

abbrev argX (c : Dev nD) : Mat 16384 2048 := m ((c : Thread nD τ).loc main_arg0)
abbrev argW (c : Dev nD) : Mat 2048 2048 := m ((c : Thread nD τ).loc main_arg1)
abbrev argB (c : Dev nD) : Row 2048 := m ((c : Thread nD τ).loc main_arg2)
abbrev argP (c : Dev nD) : Row 2048 := m ((c : Thread nD τ).loc main_arg3)
abbrev argM (c : Dev nD) : Mat 2048 2048 := m ((c : Thread nD τ).loc main_arg4)

/-! ## Where each window's block sits -/

theorem origin : (![0, 0] : Fin 2 → Nat) = fun _ => 0 := funext fun a => by fin_cases a <;> rfl

/-- The printed index maps, decided over the 64 points: the input and the output move one block of rows per point, the other
    three windows stay. -/
theorem index_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

theorem points : cfg0.N = 64 := N_0

/-- Row `p` of point `t`'s block is row `256 t + p` of the array. -/
def rowOf (t : Fin cfg0.N) (p : Fin 256) : Fin 16384 :=
  ⟨t.val * 256 + p.val, by have := t.isLt; have h := points; omega⟩

/-- The input block at a point: rows of x. -/
theorem input_at (c : Dev nD) (t : Fin cfg0.N) (p : Fin 256) (k : Fin 2048) :
    iblk m c 0 t (ix2 p k) = argX m c (ix2 (rowOf t p) k) := by
  show V m c main_arg0 (((cfg0.win 0).blk t).view.emb (ix2 p k)) = _
  rw [V_main_arg0]
  refine congrArg _ ?_
  obtain ⟨e0, e1, -⟩ := index_facts t
  funext a; apply Fin.ext
  match a with
  | ⟨0, _⟩ => show win0_0.index t (0 : Fin 2) * 256 + 1 * p.val = t.val * 256 + p.val; rw [e0]; omega
  | ⟨1, _⟩ => show win0_0.index t (1 : Fin 2) * 2048 + 1 * k.val = k.val; rw [e1]; omega

/-- The weights block at a point: the whole concatenated matrix. -/
theorem weights_at (c : Dev nD) (t : Fin cfg0.N) (k : Fin 2048) (r : Fin 4096) :
    iblk m c 1 t (ix2 k r) = HostPrefix.weights (argW m c) (argP m c) (argM m c) (ix2 k r) := by
  show V m c main_v9 (((cfg0.win 1).blk t).view.emb (ix2 k r)) = _
  rw [HostPrefix.V_weights]
  refine congrArg _ ?_
  obtain ⟨-, -, e2, e3, -⟩ := index_facts t
  funext a; apply Fin.ext
  match a with
  | ⟨0, _⟩ => show win0_1.index t (0 : Fin 2) * 2048 + 1 * k.val = k.val; rw [e2]; omega
  | ⟨1, _⟩ => show win0_1.index t (1 : Fin 2) * 4096 + 1 * r.val = r.val; rw [e3]; omega

/-- The bias block at a point: the bias as one row. -/
theorem bias_at (c : Dev nD) (t : Fin cfg0.N) (q : Fin 2048) :
    iblk m c 2 t (ix2 (0 : Fin 1) q) = argB m c (ix1 q) := by
  show V m c main_v10 (((cfg0.win 2).blk t).view.emb (ix2 (0 : Fin 1) q)) = _
  rw [HostPrefix.V_bias]
  refine Eq.trans (congrArg _ ?_) (HostPrefix.row_cast_at (argB m c) q)
  obtain ⟨-, -, -, -, e4, e5, -⟩ := index_facts t
  funext a; apply Fin.ext
  match a with
  | ⟨0, _⟩ => show win0_2.index t (0 : Fin 2) * 1 + 1 * 0 = 0; rw [e4]
  | ⟨1, _⟩ => show win0_2.index t (1 : Fin 2) * 2048 + 1 * q.val = q.val; rw [e5]; omega

/-- The modulation block at a point: the modulation as one row. -/
theorem modulation_at (c : Dev nD) (t : Fin cfg0.N) (q : Fin 2048) :
    iblk m c 3 t (ix2 (0 : Fin 1) q) = argP m c (ix1 q) := by
  show V m c main_v11 (((cfg0.win 3).blk t).view.emb (ix2 (0 : Fin 1) q)) = _
  rw [HostPrefix.V_modulation]
  refine Eq.trans (congrArg _ ?_) (HostPrefix.row_cast_at (argP m c) q)
  obtain ⟨-, -, -, -, -, -, e6, e7, -⟩ := index_facts t
  funext a; apply Fin.ext
  match a with
  | ⟨0, _⟩ => show win0_3.index t (0 : Fin 2) * 1 + 1 * 0 = 0; rw [e6]
  | ⟨1, _⟩ => show win0_3.index t (1 : Fin 2) * 2048 + 1 * q.val = q.val; rw [e7]; omega

/-- Entry (p, q) of the output block at a point is entry (256 t + p, q) of the array. -/
theorem output_at (t : Fin cfg0.N) (p : Fin 256) (q : Fin 2048) :
    ((cfg0.win 4).blk t).view.emb (ix2 p q) = ix2 (rowOf t p) q := by
  obtain ⟨-, -, -, -, -, -, -, -, e8, e9⟩ := index_facts t
  funext a; apply Fin.ext
  match a with
  | ⟨0, _⟩ => show win0_4.index t (0 : Fin 2) * 256 + 1 * p.val = t.val * 256 + p.val; rw [e8]; omega
  | ⟨1, _⟩ => show win0_4.index t (1 : Fin 2) * 2048 + 1 * q.val = q.val; rw [e9]; omega

/-! ## What a point writes back -/

/-- WHAT POINT `t` WRITES BACK is block `t` of the specification of the argument arrays. -/
theorem flushed_eq (c : Dev nD) (t : Fin cfg0.N) :
    (dats m 0 c).flushed 4 t
      = ((cfg0.win 4).blk t).view.read (Elt Ideal) (out (argX m c) (argW m c) (argB m c) (argP m c) (argM m c)) := by
  rw [Cert.KernelIdeal.Value.flushed4]
  unfold out0_4
  rw [View.canon_unit_zero origin]
  simp only [View.ld_unit_zero (S := S256x2048) origin, View.ld_unit_zero (S := S2048x4096) origin,
    View.ld_unit_zero (S := S1x2048) origin]
  funext j
  obtain ⟨p, q, rfl⟩ : ∃ (p : Fin 256) (q : Fin 2048), j = ix2 p q := ⟨j 0, j 1, eq_ix2 j⟩
  show k0_pay1 (iblk m c 0 t) (iblk m c 1 t) (iblk m c 2 t) (iblk m c 3 t) (ix2 p q)
    = out (argX m c) (argW m c) (argB m c) (argP m c) (argM m c) (((cfg0.win 4).blk t).view.emb (ix2 p q))
  rw [output_at, out_apply]
  refine (KernelValue.payload_at (iblk m c 0 t) (iblk m c 1 t) (iblk m c 2 t) (iblk m c 3 t) p q).trans ?_
  simp only [input_at, weights_at, bias_at, modulation_at, HostPrefix.weights_lo, HostPrefix.weights_hi]
  rfl

/-! ## The blocks cover the array -/

/-- An index of the array is in point `t`'s block iff each coordinate is in the block's range on its axis. -/
theorem mem_block (t : Fin cfg0.N) (i : S16384x2048.Idx) :
    i ∈ ((cfg0.win 4).blk t).view.set ↔ ∀ a : Fin 2, win0_4.index t a * S256x2048.size a ≤ (i a).val
      ∧ (i a).val < win0_4.index t a * S256x2048.size a + S256x2048.size a := by
  show i ∈ ((View.whole main_v12).slice (win0_4.rect t)).set ↔ _
  rw [View.set_slice_whole, Rect.mem_set_unit]
  exact Iff.rfl

/-- Row `r` of the array lies in the block of point `r / 256`. -/
theorem cover (i : S16384x2048.Idx) :
    ∃ t : Fin cfg0.N, (cfg0.win 4).flush t = true ∧ i ∈ ((cfg0.win 4).blk t).view.set := by
  have hi0 : (i 0).val < 16384 := (i 0).isLt
  have hi1 : (i 1).val < 2048 := (i 1).isLt
  have hN := points
  refine ⟨⟨(i 0).val / 256, by omega⟩, flush0_4 _, ?_⟩
  rw [mem_block]
  obtain ⟨-, -, -, -, -, -, -, -, e8, e9⟩ := index_facts ⟨(i 0).val / 256, by omega⟩
  intro a
  match a with
  | ⟨0, _⟩ =>
    show win0_4.index ⟨(i 0).val / 256, _⟩ (0 : Fin 2) * 256 ≤ (i 0).val
      ∧ (i 0).val < win0_4.index ⟨(i 0).val / 256, _⟩ (0 : Fin 2) * 256 + 256
    rw [e8]; show (i 0).val / 256 * 256 ≤ (i 0).val ∧ (i 0).val < (i 0).val / 256 * 256 + 256; omega
  | ⟨1, _⟩ =>
    show win0_4.index ⟨(i 0).val / 256, _⟩ (1 : Fin 2) * 2048 ≤ (i 1).val
      ∧ (i 1).val < win0_4.index ⟨(i 0).val / 256, _⟩ (1 : Fin 2) * 2048 + 2048
    rw [e9]; omega

/-! ## The array after the run, and the run -/

/-- THE ARRAY after the run is the specification of the argument arrays. -/
theorem final (c : Dev nD) :
    (dats m 0 c).arrAt 4 cfg0.N = out (argX m c) (argW m c) (argB m c) (argP m c) (argM m c) :=
  (dats m 0 c).arrAt_eq_of_cover 4 _ (fun t _ => flushed_eq m c t) cover

/-- The kernel program's run: every weakly fair execution terminates with the result array at the specification of the
    argument arrays and the arguments unchanged. -/
theorem run : θ_run defs (onTc (τ := τ) (main (F := Ideal))) ⟨m, fun _ => 0, ρ⟩ fun r => ∀ c : Dev nD,
      r.2.mem ((c : Thread nD τ).loc main_v12) = out (argX m c) (argW m c) (argB m c) (argP m c) (argM m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩) (Cert.KernelIdeal.Value.run_blocks m ρ)

end Cert.KernelRun

end
-- ==== Proof.RefValue.lean ====
/-
  The reference program computes the specification.

  Its last stage, read at row p and lane q through the generated read-at-an-index lemmas, is
      xs + (1 / (1 + e^-(sum_k x(p, k) * W(q, k) + b(q)))) * ((xs * sum_k xs(p, k) * mask(q, k)) * c),
  with xs = x(p, q) * pm(q): the transposes turn W^T(k, q) into W(q, k) and mask^T(k, q) into mask(q, k), the two
  broadcasts of a [2048] vector read lane q. The quotient is the logistic function (the word 0x3F800000 is the number one),
  and the integration term is the UNFOLDED arrangement, equal to the folded one by `Spec.integration_eq`.
-/
import proofs.«143682_j27882927685863_2_alg».proof.Proof.Gen.ReferenceIdeal.Read
import proofs.«143682_j27882927685863_2_alg».proof.Proof.Spec

noncomputable section

namespace Cert.RefValue

open Cert.ReferenceIdeal Cert.ReferenceIdeal.Read Idealize.ShloMosaic Idealize.ShloMosaic.ValueIdx Cert.Spec
open scoped BigOperators

variable (x0 : Mat 16384 2048) (x1 : Mat 2048 2048) (x2 x3 : Row 2048) (x4 : Mat 2048 2048)

/-- A [2048] vector broadcast to one row and then over all rows reads lane `q`. -/
theorem lane_idx (p : Fin 16384) (q : Fin 2048) : idx_main_v11 (idx_main_v12 (ix2 p q)) = ix1 q :=
  funext fun a => Fin.ext (by match a with | ⟨0, _⟩ => rfl)

theorem lane_idx' (p : Fin 16384) (q : Fin 2048) : idx_main_v2 (idx_main_v3 (ix2 p q)) = ix1 q :=
  funext fun a => Fin.ext (by match a with | ⟨0, _⟩ => rfl)

/-- The modulated input at (p, q). -/
theorem modulated_at (p : Fin 16384) (q : Fin 2048) :
    val_main_v13 (F := Ideal) x0 x3 (ix2 p q) = modulated x0 x3 p q := by
  rw [val_main_v13_apply, val_main_v12_apply, val_main_v11_apply, lane_idx]
  rfl

/-- The linear layer at (p, q): the transposed weights read back as W(q, k). -/
theorem linear_at (p : Fin 16384) (q : Fin 2048) :
    val_main_v1 (F := Ideal) x0 x1 (ix2 p q) = ∑ k : Fin 2048, x0 (ix2 p k) * x1 (ix2 q k) := by
  rw [val_main_v1_apply]
  refine Finset.sum_congr rfl fun k _ => ?_
  rw [val_main_v0_apply]
  have el : lidx_main_v1 (ix2 p q) k = ix2 p k :=
    funext fun a => Fin.ext (by match a with | ⟨0, _⟩ => rfl | ⟨1, _⟩ => rfl)
  have er : idx_main_v0 (ridx_main_v1 (ix2 p q) k) = ix2 q k :=
    funext fun a => Fin.ext (by match a with | ⟨0, _⟩ => rfl | ⟨1, _⟩ => rfl)
  rw [el, er]

/-- The contraction of the modulated input with the transposed mask at (p, q). -/
theorem contraction_at (p : Fin 16384) (q : Fin 2048) :
    val_main_v15 (F := Ideal) x0 x3 x4 (ix2 p q) = ∑ k : Fin 2048, modulated x0 x3 p k * x4 (ix2 q k) := by
  rw [val_main_v15_apply]
  refine Finset.sum_congr rfl fun k _ => ?_
  rw [val_main_v14_apply]
  have el : lidx_main_v15 (ix2 p q) k = ix2 p k :=
    funext fun a => Fin.ext (by match a with | ⟨0, _⟩ => rfl | ⟨1, _⟩ => rfl)
  have er : idx_main_v14 (ridx_main_v15 (ix2 p q) k) = ix2 q k :=
    funext fun a => Fin.ext (by match a with | ⟨0, _⟩ => rfl | ⟨1, _⟩ => rfl)
  rw [el, er, modulated_at]

/-- The quotient 1 / (1 + e^-z) the reference spells out is the gate. -/
theorem gate_at (p : Fin 16384) (q : Fin 2048) :
    val_main_v10 (F := Ideal) x0 x1 x2 (ix2 p q) = gate x0 x1 x2 p q := by
  rw [val_main_v10_apply, val_main_v9_apply, val_main_cst_0_apply, val_main_v8_apply, val_main_v7_apply, val_main_cst_apply,
    val_main_v6_apply, val_main_v5_apply, val_main_v4_apply, val_main_v3_apply, val_main_v2_apply, lane_idx', linear_at]
  simp only [Ideal.hostDivf_def, Ideal.addf_def, Ideal.hostUnary_exp_def, Ideal.hostNegf_def, Ideal.negf_def, Ideal.ofBits_def,
    word_one]
  rfl

/-- The scaled integration term at (p, q), in the unfolded arrangement. -/
theorem integration_at (p : Fin 16384) (q : Fin 2048) :
    val_main_v18 (F := Ideal) x0 x3 x4 (ix2 p q) = modulated x0 x3 p q * integration' x0 x3 x4 p q := by
  rw [val_main_v18_apply, val_main_v17_apply, val_main_cst_1_apply, val_main_v16_apply, modulated_at, contraction_at]
  simp only [Ideal.mulf_def, Ideal.ofBits_def]
  rw [mul_assoc]
  rfl

/-- THE REFERENCE IS THE SPECIFICATION: its last stage is `Spec.out` of the argument arrays. -/
theorem ref_eq : val_main_v20 (F := Ideal) x0 x1 x2 x3 x4 = out x0 x1 x2 x3 x4 := by
  funext j
  obtain ⟨p, q, rfl⟩ : ∃ (p : Fin 16384) (q : Fin 2048), j = ix2 p q := ⟨j 0, j 1, eq_ix2 j⟩
  rw [val_main_v20_apply, val_main_v19_apply, modulated_at, gate_at, integration_at, integration_eq, out_apply]
  rfl

end Cert.RefValue

end
-- ==== Proof.lean ====
/-
  The kernel and its reference compute one function on the extended reals.

  With xs(p, q) = x(p, q) * pm(q), sigma(z) = 1 / (1 + e^-z) and c = 2^-12 (= 0.5 / 2048), both programs return

      xs(p, q) + sigma( sum_k x(p, k) * W(q, k) + b(q) ) * ( xs(p, q) * I(p, q) ).

  The reference computes the integration term as  I = (sum_k xs(p, k) * mask(q, k)) * c : the modulation on the input, the
  scale applied after the sum. The kernel folds both into its weights: before the launch it builds one [2048, 4096] matrix
  whose left half is W^T and whose right half is (mask^T * pm) * c, runs ONE product of each 256-row block of x with it,
  and reads sigma's argument from the left half of the product and  I = sum_k x(p, k) * ((mask(q, k) * pm(k)) * c)  from
  the right half. The two arrangements of I agree on all extended reals, because c is a non-negative real and so
  distributes over the sum whatever infinities occur (Proof/Spec.lean); the logistic function the kernel applies and the
  quotient the reference spells out are one function. No finiteness of the inputs is used.

  The modules: Spec (the result as one function of the five arrays, and the law), RefValue (the reference's last stage is
  that function), KernelValue (the value the kernel body stores at one entry of a block), HostPrefix (the weights, bias and
  modulation arrays the launch finds), KernelRun (from the 64 blocks to the whole array, and the kernel program's run).
  Here the five claims are put together: the three programs run and leave their arguments unchanged, the idealized kernel
  is the kernel's own text (nothing was rewritten), and the two idealized programs end with equal results.
-/
import proofs.«143682_j27882927685863_2_alg».proof.Defs
import proofs.«143682_j27882927685863_2_alg».proof.Proof.Gen.Kernel
import proofs.«143682_j27882927685863_2_alg».proof.Proof.Gen.Kernel.Skeleton
import proofs.«143682_j27882927685863_2_alg».proof.Proof.Gen.Kernel.Launch
import proofs.«143682_j27882927685863_2_alg».proof.Proof.Gen.Kernel.Points
import proofs.«143682_j27882927685863_2_alg».proof.Proof.Gen.Kernel.Frame
import proofs.«143682_j27882927685863_2_alg».proof.Proof.Gen.KernelIdeal
import proofs.«143682_j27882927685863_2_alg».proof.Proof.Gen.KernelIdeal.Skeleton
import proofs.«143682_j27882927685863_2_alg».proof.Proof.Gen.KernelIdeal.Launch
import proofs.«143682_j27882927685863_2_alg».proof.Proof.Gen.KernelIdeal.Points
import proofs.«143682_j27882927685863_2_alg».proof.Proof.Gen.KernelIdeal.Frame
import proofs.«143682_j27882927685863_2_alg».proof.Proof.Gen.ReferenceIdeal
import proofs.«143682_j27882927685863_2_alg».proof.Proof.Gen.Pre_finite_inputs
import proofs.«143682_j27882927685863_2_alg».proof.Proof.Gen.KernelIdeal.Value
import proofs.«143682_j27882927685863_2_alg».proof.Proof.Gen.ReferenceIdeal.Run
import proofs.«143682_j27882927685863_2_alg».proof.Proof.Gen.ReferenceIdeal.Read
import proofs.«143682_j27882927685863_2_alg».proof.Proof.KernelRun
import proofs.«143682_j27882927685863_2_alg».proof.Proof.RefValue
import Idealize.ShloMosaic.Adequacy
import Idealize.ShloMosaic.Init

noncomputable section

namespace Cert.Proof

open Idealize.ShloMosaic Idealize.ShloMosaic.TcCoe Idealize.SL.Sem

/-- The kernel as printed runs and leaves its arguments unchanged. -/
theorem frame_kernel : Cert.frame_Kernel := fun m ρ _ => Cert.Kernel.Gen.frame m ρ

/-- So does its idealization. -/
theorem frame_kernel_ideal : Cert.frame_KernelIdeal := fun m ρ _ => Cert.KernelIdeal.Gen.frame m ρ

/-- So does the idealized reference: its run, with the result forgotten. -/
theorem frame_reference_ideal : Cert.frame_ReferenceIdeal := fun m ρ _ =>
  (θ_run Cert.ReferenceIdeal.defs _ _).mono (fun _ h c => (h c).2) (Cert.ReferenceIdeal.Value.run (F := Ideal) m ρ)

/-- Nothing was rewritten on the way to the idealized kernel. -/
theorem preserves : Cert.preserves_Kernel_KernelIdeal := trivial

/-- From memories that agree on the five arguments, the idealized kernel ends with its result array at the specification of
    its arguments (`KernelRun.run`), and the idealized reference at the specification of its own (`RefValue.ref_eq`), which
    are the same arrays. -/
theorem algebraic : Cert.algebraic_KernelIdeal_ReferenceIdeal := by
  intro m ρ m' ρ' _ hagree
  refine ⟨fun c => Cert.Spec.out (Cert.KernelRun.argX m c) (Cert.KernelRun.argW m c) (Cert.KernelRun.argB m c)
    (Cert.KernelRun.argP m c) (Cert.KernelRun.argM m c), Cert.KernelRun.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v20_eq, (hagree c).1, (hagree c).2.1, (hagree c).2.2.1, (hagree c).2.2.2.1,
    (hagree c).2.2.2.2]
  exact Cert.RefValue.ref_eq _ _ _ _ _

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, preserves, algebraic⟩

end Cert.Proof

end
